-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x36x32x4096 : Shape := ⟨4, ![2, 36, 32, 4096]⟩
abbrev S_ : Shape := ⟨0, ![]⟩

class Facts : Prop where
  bcast_S_S2x36x32x4096 : S_.BroadcastsInDim S2x36x32x4096 (![] : Fin 0 → Fin S2x36x32x4096.rank)
  reducesTo_S2x36x32x4096_S_d0_1_2_3 : S2x36x32x4096.ReducesTo [0, 1, 2, 3] S_
  h_S_ : 0 < S_.numel

variable [Facts]

def fn {F : FTy → Type} [FloatOps F] (main_arg0 : FVec F S2x36x32x4096 .f32) (main_arg1 : FVec F S2x36x32x4096 .f32) (main_arg2 : FVec F S2x36x32x4096 .f32) : IVec S_ 1 :=
  let main_v0 : FVec F S2x36x32x4096 .f32 := Host.absf main_arg0
  let main_cst : FVec F S_ .f32 := constant S_ .f32 0x7F800000#32
  let main_v1 : FVec F S2x36x32x4096 .f32 := broadcastInDim S2x36x32x4096 ![] bcast_S_S2x36x32x4096 main_cst
  let main_v2 : IVec S2x36x32x4096 1 := cmpf .olt main_v0 main_v1
  let main_c : IVec S_ 1 := constantI S_ 1 1#1
  let main_v3 : IVec S_ 1 := (fun x v => Host.reduce IntOp.andi x v reducesTo_S2x36x32x4096_S_d0_1_2_3 h_S_) main_v2 main_c
  let main_v4 : FVec F S2x36x32x4096 .f32 := Host.absf main_arg1
  let main_cst_0 : FVec F S_ .f32 := constant S_ .f32 0x7F800000#32
  let main_v5 : FVec F S2x36x32x4096 .f32 := broadcastInDim S2x36x32x4096 ![] bcast_S_S2x36x32x4096 main_cst_0
  let main_v6 : IVec S2x36x32x4096 1 := cmpf .olt main_v4 main_v5
  let main_c_1 : IVec S_ 1 := constantI S_ 1 1#1
  let main_v7 : IVec S_ 1 := (fun x v => Host.reduce IntOp.andi x v reducesTo_S2x36x32x4096_S_d0_1_2_3 h_S_) main_v6 main_c_1
  let main_v8 : IVec S_ 1 := andi main_v3 main_v7
  let main_v9 : FVec F S2x36x32x4096 .f32 := Host.absf main_arg2
  let main_cst_2 : FVec F S_ .f32 := constant S_ .f32 0x7F800000#32
  let main_v10 : FVec F S2x36x32x4096 .f32 := broadcastInDim S2x36x32x4096 ![] bcast_S_S2x36x32x4096 main_cst_2
  let main_v11 : IVec S2x36x32x4096 1 := cmpf .olt main_v9 main_v10
  let main_c_3 : IVec S_ 1 := constantI S_ 1 1#1
  let main_v12 : IVec S_ 1 := (fun x v => Host.reduce IntOp.andi x v reducesTo_S2x36x32x4096_S_d0_1_2_3 h_S_) main_v11 main_c_3
  let main_v13 : IVec S_ 1 := andi main_v8 main_v12
  main_v13
-- ==== Kernel.lean ====
abbrev S2x36x32x4096 : Shape := ⟨4, ![2, 36, 32, 4096]⟩
abbrev S72x32x4096 : Shape := ⟨3, ![72, 32, 4096]⟩
abbrev S4x32x4096 : Shape := ⟨3, ![4, 32, 4096]⟩
abbrev S4x32 : Shape := ⟨2, ![4, 32]⟩
abbrev S4x32x1 : Shape := ⟨3, ![4, 32, 1]⟩
abbrev S4x32x32 : Shape := ⟨3, ![4, 32, 32]⟩
abbrev S4x4096 : Shape := ⟨2, ![4, 4096]⟩
abbrev S4x1x4096 : Shape := ⟨3, ![4, 1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S2x36x32x4096, .f32⟩
  | .hbm, ⟨1, _⟩ => ⟨S2x36x32x4096, .f32⟩
  | .hbm, ⟨2, _⟩ => ⟨S2x36x32x4096, .f32⟩
  | .hbm, ⟨3, _⟩ => ⟨S72x32x4096, .f32⟩
  | .hbm, ⟨4, _⟩ => ⟨S72x32x4096, .f32⟩
  | .hbm, ⟨5, _⟩ => ⟨S72x32x4096, .f32⟩
  | .hbm, ⟨6, _⟩ => ⟨S72x32x4096, .f32⟩
  | .hbm, ⟨7, _⟩ => ⟨S2x36x32x4096, .f32⟩
  | .local _ .vmem, ⟨0, _⟩ => ⟨S4x32x4096, .f32⟩
  | .local _ .vmem, ⟨1, _⟩ => ⟨S4x32x4096, .f32⟩
  | .local _ .vmem, ⟨2, _⟩ => ⟨S4x32x4096, .f32⟩
  | .local _ .vmem, ⟨3, _⟩ => ⟨S4x32x4096, .f32⟩
  | .local _ .vmem, ⟨4, _⟩ => ⟨S4x32x4096, .f32⟩
  | .local _ .vmem, ⟨5, _⟩ => ⟨S4x32x4096, .f32⟩
  | .local _ .vmem, ⟨6, _⟩ => ⟨S4x32x4096, .f32⟩
  | .local _ .vmem, ⟨7, _⟩ => ⟨S4x32x4096, .f32⟩
  | _, _ => ⟨S2x36x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x36x32x4096_S72x32x4096 : S2x36x32x4096.ShapeCasts S72x32x4096
  inb_S4x32x4096_S4x32x4096_0_0_0 : ∀ a, (![0, 0, 0] : Fin 3 → Nat) a + S4x32x4096.size a ≤ S4x32x4096.size a
  h_S4x32x4096 : 0 < S4x32x4096.numel
  shapeCasts_S4x32x4096_S4x32x4096 : S4x32x4096.ShapeCasts S4x32x4096
  reduces_S4x32x4096_S4x32 : S4x32x4096.Reduces [2] S4x32
  shapeCasts_S4x32_S4x32x1 : S4x32.ShapeCasts S4x32x1
  bitsLt_bf16_f32 : FTy.bits .bf16 < FTy.bits .f32
  broadcasts_S4x32x1_S4x32x4096 : S4x32x1.Broadcasts S4x32x4096
  reduces_S4x32x4096_S4x4096 : S4x32x4096.Reduces [1] S4x4096
  shapeCasts_S4x4096_S4x1x4096 : S4x4096.ShapeCasts S4x1x4096
  broadcasts_S4x1x4096_S4x32x4096 : S4x1x4096.Broadcasts S4x32x4096
  shapeCasts_S72x32x4096_S2x36x32x4096 : S72x32x4096.ShapeCasts S2x36x32x4096
  dot_S4x32x4096_S4x32x4096_S4x32x32_2_2_1_1_0_0_wf : DotDims.WF S4x32x4096 S4x32x4096 S4x32x32 [2] [2] [1] [1] [0] [0]
  dot_S4x32x32_S4x32x4096_S4x32x4096_2_1_1_2_0_0_wf : DotDims.WF S4x32x32 S4x32x4096 S4x32x4096 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x4096.size a ≤ S72x32x4096.size a
  hwx0_0 : ∀ i : grid0.Coords, EltTy.bits .f32 = 32 ∨ (Rect.block (s := S72x32x4096) S4x32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32x4096.size a ≤ S72x32x4096.size a
  hwx0_1 : ∀ i : grid0.Coords, EltTy.bits .f32 = 32 ∨ (Rect.block (s := S72x32x4096) S4x32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x32x4096.size a ≤ S72x32x4096.size a
  hwx0_2 : ∀ i : grid0.Coords, EltTy.bits .f32 = 32 ∨ (Rect.block (s := S72x32x4096) S4x32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x32x4096.size a ≤ S72x32x4096.size a
  hwx0_3 : ∀ i : grid0.Coords, EltTy.bits .f32 = 32 ∨ (Rect.block (s := S72x32x4096) S4x32x4096.size (cc0_transform_3 i) (hinb0_3 i)).WholeWords (EltTy.packing .f32)

variable [Facts₀]

def dot_S4x32x4096_S4x32x4096_S4x32x32_2_2_1_1_0_0 : DotDims S4x32x4096 S4x32x4096 S4x32x32 where
  lhsContracting := [2]
  rhsContracting := [2]
  lhsNonContracting := [1]
  rhsNonContracting := [1]
  lhsBatch := [0]
  rhsBatch := [0]
  wf := dot_S4x32x4096_S4x32x4096_S4x32x32_2_2_1_1_0_0_wf
def dot_S4x32x32_S4x32x4096_S4x32x4096_2_1_1_2_0_0 : DotDims S4x32x32 S4x32x4096 S4x32x4096 where
  lhsContracting := [2]
  rhsContracting := [1]
  lhsNonContracting := [1]
  rhsNonContracting := [2]
  lhsBatch := [0]
  rhsBatch := [0]
  wf := dot_S4x32x32_S4x32x4096_S4x32x4096_2_1_1_2_0_0_wf

abbrev win0_0 : Pipeline.Window sig grid0 :=
  Pipeline.Window.ofSpec (Memref.whole main_v0) S4x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x32x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x32x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x36x32x4096 : Shape := ⟨4, ![2, 36, 32, 4096]⟩
abbrev S_ : Shape := ⟨0, ![]⟩
abbrev S2x36x33x4096 : Shape := ⟨4, ![2, 36, 33, 4096]⟩
abbrev S2x36x33x32 : Shape := ⟨4, ![2, 36, 33, 32]⟩
abbrev S2x36x1x4096 : Shape := ⟨4, ![2, 36, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2x36x32x4096, .f32⟩
  | .hbm, ⟨1, _⟩ => ⟨S2x36x32x4096, .f32⟩
  | .hbm, ⟨2, _⟩ => ⟨S2x36x32x4096, .f32⟩
  | .hbm, ⟨3, _⟩ => ⟨S_, .f32⟩
  | .hbm, ⟨4, _⟩ => ⟨S_, .f32⟩
  | .hbm, ⟨5, _⟩ => ⟨S2x36x33x4096, .f32⟩
  | .hbm, ⟨6, _⟩ => ⟨S2x36x33x32, .f32⟩
  | .hbm, ⟨7, _⟩ => ⟨S2x36x33x4096, .f32⟩
  | .hbm, ⟨8, _⟩ => ⟨S2x36x32x4096, .f32⟩
  | .hbm, ⟨9, _⟩ => ⟨S2x36x1x4096, .f32⟩
  | .hbm, ⟨10, _⟩ => ⟨S_, .f32⟩
  | .hbm, ⟨11, _⟩ => ⟨S2x36x1x4096, .f32⟩
  | .hbm, ⟨12, _⟩ => ⟨S2x36x1x4096, .f32⟩
  | .hbm, ⟨13, _⟩ => ⟨S2x36x32x4096, .f32⟩
  | .hbm, ⟨14, _⟩ => ⟨S2x36x32x4096, .f32⟩
  | _, _ => ⟨S2x36x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  pads_S2x36x32x4096_S2x36x33x4096_000_000_010_000 : S2x36x32x4096.Pads (![0, 0, 0, 0] : Fin 4 → Nat) ![0, 0, 1, 0] ![0, 0, 0, 0] S2x36x33x4096
  h_S_ : 0 < S_.numel
  slices_S2x36x33x4096_S2x36x32x4096_0_0_0_0 : S2x36x33x4096.Slices ![0, 0, 0, 0] S2x36x32x4096
  slices_S2x36x33x4096_S2x36x1x4096_0_0_32_0 : S2x36x33x4096.Slices ![0, 0, 32, 0] S2x36x1x4096
  bcast_S_S2x36x1x4096 : S_.BroadcastsInDim S2x36x1x4096 (![] : Fin 0 → Fin S2x36x1x4096.rank)
  bcast_S2x36x1x4096_S2x36x32x4096_0_1_2_3 : S2x36x1x4096.BroadcastsInDim S2x36x32x4096 (![0, 1, 2, 3] : Fin 4 → Fin S2x36x32x4096.rank)
  dot_S2x36x33x4096_S2x36x32x4096_S2x36x33x32_3_3_2_2_01_01_wf : DotDims.WF S2x36x33x4096 S2x36x32x4096 S2x36x33x32 [3] [3] [2] [2] [0, 1] [0, 1]
  dot_S2x36x33x32_S2x36x32x4096_S2x36x33x4096_3_2_2_3_01_01_wf : DotDims.WF S2x36x33x32 S2x36x32x4096 S2x36x33x4096 [3] [2] [2] [3] [0, 1] [0, 1]

variable [Facts₀]

def dot_S2x36x33x4096_S2x36x32x4096_S2x36x33x32_3_3_2_2_01_01 : DotDims S2x36x33x4096 S2x36x32x4096 S2x36x33x32 where
  lhsContracting := [3]
  rhsContracting := [3]
  lhsNonContracting := [2]
  rhsNonContracting := [2]
  lhsBatch := [0, 1]
  rhsBatch := [0, 1]
  wf := dot_S2x36x33x4096_S2x36x32x4096_S2x36x33x32_3_3_2_2_01_01_wf
def dot_S2x36x33x32_S2x36x32x4096_S2x36x33x4096_3_2_2_3_01_01 : DotDims S2x36x33x32 S2x36x32x4096 S2x36x33x4096 where
  lhsContracting := [3]
  rhsContracting := [2]
  lhsNonContracting := [2]
  rhsNonContracting := [3]
  lhsBatch := [0, 1]
  rhsBatch := [0, 1]
  wf := dot_S2x36x33x32_S2x36x32x4096_S2x36x33x4096_3_2_2_3_01_01_wf

class Facts : Prop extends Facts₀ where

variable [Facts]
-- ==== Proof.Spec.lean ====
/-
  Linear attention with a ones-row normaliser, one head at a time, on the extended reals.

  For one head, with query `Q`, key `K` and value `V` each a `32 × 4096` array (feature × token):

      scores d e  = Σ_j V d j · K e j                 (a 32 × 32 matrix)
      ksum e      = Σ_j K e j
      out d n     = (Σ_e scores d e · Q e n) / ((Σ_e ksum e · Q e n) + ε)

  The denominator is what an extra row of ones appended to `V` contributes: with `V 32 j = 1` the same two sums give
  `Σ_e (Σ_j 1 · K e j) · Q e n`, and `1 · x = x` holds for every extended real, the infinities included.  So nothing
  here needs the inputs to be finite.
-/
import Idealize.ShloMosaic.Lib.ValueIdx
import Idealize.ShloMosaic.PureOps.Ideal

noncomputable section

namespace LinAttn

open Idealize.ShloMosaic Idealize.ShloMosaic.ValueIdx

/-- The normaliser's offset `ε`: the binary32 value nearest `10⁻¹⁵`, the same word in both programs. -/
def eps : EReal := Ideal.ofBits .f32 0x26901D7D#32

/-- The numerator of one head at feature `d`, token `n`. -/
def num (Q K V : Fin 32 → Fin 4096 → EReal) (d : Fin 32) (n : Fin 4096) : EReal :=
  ∑ e : Fin 32, (∑ j : Fin 4096, V d j * K e j) * Q e n

/-- The normaliser of one head at token `n`. -/
def den (Q K : Fin 32 → Fin 4096 → EReal) (n : Fin 4096) : EReal :=
  ∑ e : Fin 32, (∑ j : Fin 4096, K e j) * Q e n

/-- One head's output. -/
def head (Q K V : Fin 32 → Fin 4096 → EReal) (d : Fin 32) (n : Fin 4096) : EReal :=
  Ideal.div (num Q K V d n) (den Q K n + eps)

/-- The normaliser as the ones-row's contribution: multiplying each key entry by `1` changes nothing. -/
theorem den_eq_ones (Q K : Fin 32 → Fin 4096 → EReal) (n : Fin 4096) :
    ∑ e : Fin 32, (∑ j : Fin 4096, (1 : EReal) * K e j) * Q e n = den Q K n := by
  unfold den
  simp only [one_mul]

/-- The whole result over `[2, 36, 32, 4096]` (batch, head, feature, token): each (batch, head) pair is one head. -/
def result (q k v : (⟨4, ![2, 36, 32, 4096]⟩ : Shape).Idx → EReal) : (⟨4, ![2, 36, 32, 4096]⟩ : Shape).Idx → EReal :=
  fun i => head (fun e n => q (ix4 (i 0) (i 1) e n)) (fun e n => k (ix4 (i 0) (i 1) e n))
    (fun d n => v (ix4 (i 0) (i 1) d n)) (i 2) (i 3)

/-- The same with the batch and head axes flattened into one of extent 72, as the kernel's launch sees the arrays. -/
def result3 (q k v : (⟨3, ![72, 32, 4096]⟩ : Shape).Idx → EReal) : (⟨3, ![72, 32, 4096]⟩ : Shape).Idx → EReal :=
  fun i => head (fun e n => q (ix3 (i 0) e n)) (fun e n => k (ix3 (i 0) e n)) (fun d n => v (ix3 (i 0) d n)) (i 1) (i 2)

/-- `result` at an index given by its coordinates. -/
theorem result_apply (q k v : (⟨4, ![2, 36, 32, 4096]⟩ : Shape).Idx → EReal) (b : Fin 2) (h : Fin 36) (d : Fin 32)
    (n : Fin 4096) :
    result q k v (ix4 b h d n)
      = head (fun e n => q (ix4 b h e n)) (fun e n => k (ix4 b h e n)) (fun d n => v (ix4 b h d n)) d n := rfl

/-- `result3` at an index given by its coordinates. -/
theorem result3_apply (q k v : (⟨3, ![72, 32, 4096]⟩ : Shape).Idx → EReal) (g : Fin 72) (d : Fin 32) (n : Fin 4096) :
    result3 q k v (ix3 g d n)
      = head (fun e n => q (ix3 g e n)) (fun e n => k (ix3 g e n)) (fun d n => v (ix3 g d n)) d n := rfl

end LinAttn

end
-- ==== Proof.LibPadAxis2.lean ====
/-
  The host's padding of a rank-4 array at the high end of its third axis, read at an index.

  `stablehlo.pad` with no low and no interior padding keeps the operand in the leading corner of the result.  When
  only the third axis grows, from `n2` to `m2`, the result at `(p, q, r, s)` is the operand at `(p, q, r, s)` when
  `r < n2`, and the padding value (the one element of a rank-zero operand) on the added slices `r ≥ n2`.
-/
import Idealize.ShloMosaic.Lib.KernelVsHost
import Idealize.ShloMosaic.Lib.ValueIdx
import Idealize.ShloMosaic.Lib.Pipeline.Value

noncomputable section

namespace Idealize.ShloMosaic.PadAxis2

open Idealize.ShloMosaic Idealize.ShloMosaic.ValueIdx

variable {α : Type}

/-- An `[n0, n1, n2, n3]` array padded at the high end of its third axis to `[n0, n1, m2, n3]`, read at
    `(p, q, r, s)`: the operand at `(p, q, r, s)` when `r < n2`, the padding value otherwise. -/
theorem pad_apply {n0 n1 n2 n3 m2 h2 : ℕ} (x : (⟨4, ![n0, n1, n2, n3]⟩ : Shape).Idx → α) {u : Shape} (v : u.Idx → α)
    (h : (⟨4, ![n0, n1, n2, n3]⟩ : Shape).Pads ![0, 0, 0, 0] ![0, 0, h2, 0] ![0, 0, 0, 0] ⟨4, ![n0, n1, m2, n3]⟩)
    (hu : 0 < u.numel) (p : Fin n0) (q : Fin n1) (r : Fin m2) (s : Fin n3) :
    pad ⟨4, ![n0, n1, m2, n3]⟩ ![0, 0, 0, 0] ![0, 0, h2, 0] ![0, 0, 0, 0] x v h hu (ix4 p q r s)
      = if hr : r.val < n2 then x (ix4 p q ⟨r.val, hr⟩ s) else v (Shape.Idx.first hu) := by
  by_cases hr : r.val < n2
  · rw [dif_pos hr]
    refine pad_apply_of_inside _ _ _ x v h hu (ix4 p q r s) (ix4 p q ⟨r.val, hr⟩ s) fun ax => ?_
    match ax with
    | ⟨0, _⟩ => show p.val = 0 + p.val * (0 + 1); omega
    | ⟨1, _⟩ => show q.val = 0 + q.val * (0 + 1); omega
    | ⟨2, _⟩ => show r.val = 0 + r.val * (0 + 1); omega
    | ⟨3, _⟩ => show s.val = 0 + s.val * (0 + 1); omega
  · rw [dif_neg hr]
    refine pad_apply_of_not_inside _ _ _ x v h hu (ix4 p q r s) ⟨2, by show (2 : ℕ) < 4; omega⟩ fun hh => hr ?_
    have h3 : (r.val - 0) / (0 + 1) < n2 := hh.2.2
    rw [Nat.sub_zero, Nat.zero_add, Nat.div_one] at h3
    exact h3

end Idealize.ShloMosaic.PadAxis2

end
-- ==== Proof.RefSpec.lean ====
/-
  The reference computes `LinAttn.result`.

  The reference appends a row of ones to the value array along the feature axis (`[2, 36, 32, 4096] → [2, 36, 33, 4096]`),
  forms `scores = v_pad · keyᵀ` (contracting the tokens) and `hidden = scores · query` (contracting the features), and
  divides rows `0 … 31` of `hidden` by row `32` plus `ε`.  Read index by index: rows `d < 32` of `scores` are
  `Σ_j v d j · k e j`, row `32` is `Σ_j 1 · k e j`; so rows `d < 32` of `hidden` are the spec's numerator and row `32`
  is its normaliser with every key entry multiplied by `1`.
-/
import proofs.«123421_j45208825758214_2_alg».proof.Proof.Gen.ReferenceIdeal.Read
import proofs.«123421_j45208825758214_2_alg».proof.Proof.Spec
import proofs.«123421_j45208825758214_2_alg».proof.Proof.LibPadAxis2

noncomputable section

namespace Cert.ReferenceIdeal.RefValue

open Cert.ReferenceIdeal Cert.ReferenceIdeal.Gen Cert.ReferenceIdeal.Read
open Idealize.ShloMosaic Idealize.ShloMosaic.ValueIdx

/-- The padding value: the binary32 word `0x3F800000` is the number one. -/
theorem ofBits_one : Ideal.ofBits .f32 0x3F800000#32 = (1 : EReal) := by
  simp [Ideal.ofBits, Ideal.ieee, -EReal.coe_mul]
  norm_num

/-- The padded value array at `(b, h, d, j)`: the value array for `d < 32`, one on the added row. -/
theorem vpad_apply (x2 : (⟨S2x36x32x4096, .f32⟩ : BufTy).Contents (Elt Ideal)) (b : Fin 2) (h : Fin 36) (d : Fin 33)
    (j : Fin 4096) :
    val_main_v0 (F := Ideal) x2 (ix4 b h d j) = if hd : d.val < 32 then x2 (ix4 b h ⟨d.val, hd⟩ j) else 1 := by
  unfold val_main_v0
  rw [PadAxis2.pad_apply x2 (val_main_call0_v0 (F := Ideal)) pads_S2x36x32x4096_S2x36x33x4096_000_000_010_000 h_S_ b h d j]
  by_cases hd : d.val < 32
  · rw [dif_pos hd, dif_pos hd]
  · rw [dif_neg hd, dif_neg hd]
    exact ofBits_one

/-- `scores` at `(b, h, d, e)`: the padded value row `d` against key row `e`, summed over the tokens. -/
theorem scores_apply (x1 x2 : (⟨S2x36x32x4096, .f32⟩ : BufTy).Contents (Elt Ideal)) (b : Fin 2) (h : Fin 36) (d : Fin 33)
    (e : Fin 32) :
    val_main_v1 (F := Ideal) x1 x2 (ix4 b h d e)
      = ∑ j : Fin 4096, val_main_v0 (F := Ideal) x2 (ix4 b h d j) * x1 (ix4 b h e j) := by
  rw [val_main_v1_apply]
  have el : ∀ j, lidx_main_v1 (ix4 b h d e) j = ix4 b h d j := fun j => funext fun a => Fin.ext (by
    match a with
    | ⟨0, _⟩ => rfl
    | ⟨1, _⟩ => rfl
    | ⟨2, _⟩ => rfl
    | ⟨3, _⟩ => rfl)
  have er : ∀ j, ridx_main_v1 (ix4 b h d e) j = ix4 b h e j := fun j => funext fun a => Fin.ext (by
    match a with
    | ⟨0, _⟩ => rfl
    | ⟨1, _⟩ => rfl
    | ⟨2, _⟩ => rfl
    | ⟨3, _⟩ => rfl)
  exact Finset.sum_congr rfl fun j _ => by rw [el, er]

/-- Rows `d < 32` of `scores`: the value row against the key row. -/
theorem scores_value (x1 x2 : (⟨S2x36x32x4096, .f32⟩ : BufTy).Contents (Elt Ideal)) (b : Fin 2) (h : Fin 36) (d : Fin 32)
    (e : Fin 32) :
    val_main_v1 (F := Ideal) x1 x2 (ix4 b h ⟨d.val, Nat.lt_succ_of_lt d.isLt⟩ e)
      = ∑ j : Fin 4096, x2 (ix4 b h d j) * x1 (ix4 b h e j) := by
  rw [scores_apply]
  exact Finset.sum_congr rfl fun j _ => by rw [vpad_apply, dif_pos d.isLt]

/-- Row `32` of `scores`: ones against the key row. -/
theorem scores_ones (x1 x2 : (⟨S2x36x32x4096, .f32⟩ : BufTy).Contents (Elt Ideal)) (b : Fin 2) (h : Fin 36) (e : Fin 32) :
    val_main_v1 (F := Ideal) x1 x2 (ix4 b h ⟨32, by decide⟩ e) = ∑ j : Fin 4096, (1 : EReal) * x1 (ix4 b h e j) := by
  rw [scores_apply]
  exact Finset.sum_congr rfl fun j _ => by rw [vpad_apply, dif_neg (by decide)]

/-- `hidden` at `(b, h, d, n)`: `scores` row `d` against query column `n`, summed over the features. -/
theorem hidden_apply (x0 x1 x2 : (⟨S2x36x32x4096, .f32⟩ : BufTy).Contents (Elt Ideal)) (b : Fin 2) (h : Fin 36)
    (d : Fin 33) (n : Fin 4096) :
    val_main_v2 (F := Ideal) x0 x1 x2 (ix4 b h d n)
      = ∑ e : Fin 32, val_main_v1 (F := Ideal) x1 x2 (ix4 b h d e) * x0 (ix4 b h e n) := by
  rw [val_main_v2_apply]
  have el : ∀ e, lidx_main_v2 (ix4 b h d n) e = ix4 b h d e := fun e => funext fun a => Fin.ext (by
    match a with
    | ⟨0, _⟩ => rfl
    | ⟨1, _⟩ => rfl
    | ⟨2, _⟩ => rfl
    | ⟨3, _⟩ => rfl)
  have er : ∀ e, ridx_main_v2 (ix4 b h d n) e = ix4 b h e n := fun e => funext fun a => Fin.ext (by
    match a with
    | ⟨0, _⟩ => rfl
    | ⟨1, _⟩ => rfl
    | ⟨2, _⟩ => rfl
    | ⟨3, _⟩ => rfl)
  exact Finset.sum_congr rfl fun e _ => by rw [el, er]

/-- The reference's result is `LinAttn.result` of its three arguments (query, key, value). -/
theorem ref_eq (x0 x1 x2 : (⟨S2x36x32x4096, .f32⟩ : BufTy).Contents (Elt Ideal)) :
    val_main_v8 (F := Ideal) x0 x1 x2 = LinAttn.result x0 x1 x2 := by
  funext i
  obtain ⟨b, h, d, n, rfl⟩ : ∃ (b : Fin 2) (h : Fin 36) (d : Fin 32) (n : Fin 4096), i = ix4 b h d n :=
    ⟨i 0, i 1, i 2, i 3, eq_ix4 i⟩
  have e3 : idx_main_v3 (ix4 b h d n) = ix4 b h (⟨d.val, Nat.lt_succ_of_lt d.isLt⟩ : Fin 33) n :=
    funext fun a => Fin.ext (by
      match a with
      | ⟨0, _⟩ => rfl
      | ⟨1, _⟩ => rfl
      | ⟨2, _⟩ => rfl
      | ⟨3, _⟩ => rfl)
  have e4 : idx_main_v4 (idx_main_v7 (ix4 b h d n)) = ix4 b h (⟨32, by decide⟩ : Fin 33) n :=
    funext fun a => Fin.ext (by
      match a with
      | ⟨0, _⟩ => rfl
      | ⟨1, _⟩ => rfl
      | ⟨2, _⟩ => rfl
      | ⟨3, _⟩ => rfl)
  rw [val_main_v8_apply, val_main_v3_apply, val_main_v7_apply, val_main_v6_apply, val_main_v4_apply, val_main_v5_apply,
    val_main_cst_0_apply, e3, e4, hidden_apply, hidden_apply, LinAttn.result_apply]
  simp only [scores_value, scores_ones]
  unfold LinAttn.head
  rw [← LinAttn.den_eq_ones]
  rfl

end Cert.ReferenceIdeal.RefValue

end
-- ==== Proof.LibKeepdims3.lean ====
/-
  Reading the "keep the reduced axis as a unit axis" operations of a rank-3 array at an index.

  A sum over the LAST axis of an `[a, b, c]` array kept as `[a, b, 1]`, and a sum over its MIDDLE axis kept as
  `[a, 1, c]`, are each met as three operations: the reduction to the rank-2 array, the cast that inserts the unit
  axis, and later a broadcast of the result back to `[a, b, c]`.  Each lemma reads one of them at an index built
  from coordinates.
-/
import Idealize.ShloMosaic.Lib.Pipeline.Value
import Idealize.ShloMosaic.Lib.ValueIdx
import Idealize.ShloMosaic.PureOps.Ideal.Laws

noncomputable section

namespace Idealize.ShloMosaic.Keepdims3

open Idealize.ShloMosaic Idealize.ShloMosaic.ValueIdx

variable {α : Type} {a b c : ℕ}

/-- The sum of an `[a, b, c]` array over its last axis into the zero accumulator, at `(p, q)`, is the sum of that
    lane's entries. -/
theorem lastSum_apply (v : FVec Ideal ⟨3, ![a, b, c]⟩ .f32) (h : (⟨3, ![a, b, c]⟩ : Shape).Reduces [2] ⟨2, ![a, b]⟩)
    (hacc : (0x00000000#32 : BitVec 32) = 0x00000000#32) (p : Fin a) (q : Fin b) :
    multiReduction .add [2] ⟨2, ![a, b]⟩ v 0x00000000#32 h (.inl rfl) hacc (ix2 p q) = ∑ k : Fin c, v (ix3 p q k) :=
  (Ideal.multiReduction_add_single v 0x00000000#32 h (.inl rfl) hacc (ix2 p q)).trans
    (Finset.sum_congr rfl fun k _ => congrArg v (funext fun ax => Fin.ext (by
      match ax with
      | ⟨0, _⟩ => rfl
      | ⟨1, _⟩ => rfl
      | ⟨2, _⟩ => rfl)))

/-- The sum of an `[a, b, c]` array over its middle axis into the zero accumulator, at `(p, r)`, is the sum over the
    middle coordinate. -/
theorem midSum_apply (v : FVec Ideal ⟨3, ![a, b, c]⟩ .f32) (h : (⟨3, ![a, b, c]⟩ : Shape).Reduces [1] ⟨2, ![a, c]⟩)
    (hacc : (0x00000000#32 : BitVec 32) = 0x00000000#32) (p : Fin a) (r : Fin c) :
    multiReduction .add [1] ⟨2, ![a, c]⟩ v 0x00000000#32 h (.inl rfl) hacc (ix2 p r) = ∑ k : Fin b, v (ix3 p k r) :=
  (Ideal.multiReduction_add_single v 0x00000000#32 h (.inl rfl) hacc (ix2 p r)).trans
    (Finset.sum_congr rfl fun k _ => congrArg v (funext fun ax => Fin.ext (by
      match ax with
      | ⟨0, _⟩ => rfl
      | ⟨1, _⟩ => rfl
      | ⟨2, _⟩ => rfl)))

/-- An `[a, b]` array cast to `[a, b, 1]` reads, at `(p, q, u)`, the operand at `(p, q)`. -/
theorem shapeCast_ab_ab1_apply (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, c]` array cast to `[a, 1, c]` reads, at `(p, u, r)`, the operand at `(p, r)`. -/
theorem shapeCast_ac_a1c_apply (x : (⟨2, ![a, c]⟩ : Shape).Idx → α) (h : (⟨2, ![a, c]⟩ : Shape).ShapeCasts ⟨3, ![a, 1, c]⟩)
    (p : Fin a) (u : Fin 1) (r : Fin c) : shapeCast ⟨3, ![a, 1, c]⟩ x h (ix3 p u r) = x (ix2 p r) :=
  shapeCast_apply x h _ _ (by
    have hu : u.val = 0 := by omega
    rw [Shape.rowMajor_val_two, Shape.rowMajor_val_three]
    show p.val * c + r.val = (p.val * 1 + u.val) * c + r.val
    rw [hu, Nat.mul_one, Nat.add_zero])

/-- An `[a, b, 1]` array broadcast over `c` lanes reads, at `(p, q, r)`, the operand at `(p, q, 0)`. -/
theorem broadcastTo_ab1_abc_apply (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast over `b` rows reads, at `(p, q, r)`, the operand at `(p, 0, r)`. -/
theorem broadcastTo_a1c_abc_apply (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Idealize.ShloMosaic.Keepdims3

end
-- ==== Proof.LibBatchDot.lean ====
/-
  Matrix products with a leading batch axis, read at an entry, on the extended reals.

  `[B, M, K] × [B, K, N] → [B, M, N]` (one product per batch coordinate) and `[B, M, K] × [K, N] → [B, M, N]` (one right
  operand shared by every batch coordinate): the kernel's matrix unit into the zero accumulator and the host's
  `dot_general` are both the sum over the dimension record's contraction index of the operands' products, and when the
  record's operand indices are the expected ones — stated as facts about the record, which each use proves by evaluating
  its record — that sum re-indexes to `Σ j, lhs (b, m, j) · rhs (b, j, n)`, respectively `Σ j, lhs (b, m, j) · rhs (j, n)`.
-/
import Idealize.ShloMosaic.Lib.ValueIdx
import Idealize.ShloMosaic.PureOps.Ideal.Laws

noncomputable section

namespace Idealize.ShloMosaic.BatchDot

open Idealize.ShloMosaic Idealize.ShloMosaic.ValueIdx

variable {B M K N : ℕ} {φ₁ φ₂ : FTy}

/-- The contraction sum of a batched product at entry `(b, m, n)`, re-indexed by the contracted coordinate. -/
theorem sum_eq (D : DotDims ⟨3, ![B, M, K]⟩ ⟨3, ![B, K, N]⟩ ⟨3, ![B, M, N]⟩)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (m : Fin M) (n : Fin N) :
    ∑ q : D.contr.Idx, lhs (D.lhsIdx (ix3 b m n) q) * rhs (D.rhsIdx (ix3 b m n) q)
      = ∑ j : Fin K, lhs (ix3 b m j) * rhs (ix3 b j n) := by
  rw [← Equiv.sum_comp (contrEquiv1 D K hr hs).symm]
  refine Finset.sum_congr rfl fun j _ => ?_
  have hk := contrEquiv1_symm_val D K hr hs j
  have el : D.lhsIdx (ix3 b m n) ((contrEquiv1 D K hr hs).symm j) = ix3 b m j := funext fun ax => Fin.ext (by
    match ax with
    | ⟨0, _⟩ => exact hl0 _ _
    | ⟨1, _⟩ => exact hl1 _ _
    | ⟨2, _⟩ => exact (hl2 _ _).trans hk)
  have er : D.rhsIdx (ix3 b m n) ((contrEquiv1 D K hr hs).symm j) = ix3 b j n := funext fun ax => Fin.ext (by
    match ax with
    | ⟨0, _⟩ => exact hr0 _ _
    | ⟨1, _⟩ => exact (hr1 _ _).trans hk
    | ⟨2, _⟩ => exact hr2 _ _)
  rw [el, er]

/-- The matrix unit into the zero accumulator, batched, at entry `(b, m, n)`. -/
theorem matmul_zero_apply (D : DotDims ⟨3, ![B, M, K]⟩ ⟨3, ![B, K, N]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (m : Fin M) (n : Fin N) :
    matmul D prec lhs rhs (constant (F := Ideal) ⟨3, ![B, M, N]⟩ .f32 0x00000000#32) (ix3 b m n)
      = ∑ j : Fin K, lhs (ix3 b m j) * rhs (ix3 b j n) :=
  (Ideal.matmul_constant_zero_apply D prec lhs rhs (ix3 b m n)).trans (sum_eq D hr hs hl0 hl1 hl2 hr0 hr1 hr2 lhs rhs b m n)

/-- The host's batched `dot_general`, at entry `(b, m, n)`. -/
theorem dotGeneral_apply (D : DotDims ⟨3, ![B, M, K]⟩ ⟨3, ![B, K, N]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (q ⟨0, by omega⟩).val)
    (hr2 : ∀ i q, (D.rhsIdx i q 2).val = (i 2).val)
    (lhs : FVec Ideal ⟨3, ![B, M, K]⟩ φ₁) (rhs : FVec Ideal ⟨3, ![B, K, N]⟩ φ₂) (b : Fin B) (m : Fin M) (n : Fin N) :
    Host.dotGeneral D prec lhs rhs (ix3 b m n) = ∑ j : Fin K, lhs (ix3 b m j) * rhs (ix3 b j n) :=
  (Ideal.dotGeneral_apply D prec .single lhs rhs (ix3 b m n)).trans (sum_eq D hr hs hl0 hl1 hl2 hr0 hr1 hr2 lhs rhs b m n)

/-- The contraction sum of `[B, M, K] × [K, N]` at entry `(b, m, n)`, re-indexed by the contracted coordinate. -/
theorem sumShared_eq (D : DotDims ⟨3, ![B, M, K]⟩ ⟨2, ![K, N]⟩ ⟨3, ![B, M, N]⟩)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (q ⟨0, by omega⟩).val)
    (hr1 : ∀ i q, (D.rhsIdx i q 1).val = (i 2).val)
    (lhs : FVec Ideal ⟨3, ![B, M, K]⟩ φ₁) (rhs : FVec Ideal ⟨2, ![K, N]⟩ φ₂) (b : Fin B) (m : Fin M) (n : Fin N) :
    ∑ q : D.contr.Idx, lhs (D.lhsIdx (ix3 b m n) q) * rhs (D.rhsIdx (ix3 b m n) q)
      = ∑ j : Fin K, lhs (ix3 b m j) * rhs (ix2 j n) := by
  rw [← Equiv.sum_comp (contrEquiv1 D K hr hs).symm]
  refine Finset.sum_congr rfl fun j _ => ?_
  have hk := contrEquiv1_symm_val D K hr hs j
  have el : D.lhsIdx (ix3 b m n) ((contrEquiv1 D K hr hs).symm j) = ix3 b m j := funext fun ax => Fin.ext (by
    match ax with
    | ⟨0, _⟩ => exact hl0 _ _
    | ⟨1, _⟩ => exact hl1 _ _
    | ⟨2, _⟩ => exact (hl2 _ _).trans hk)
  have er : D.rhsIdx (ix3 b m n) ((contrEquiv1 D K hr hs).symm j) = ix2 j n := funext fun ax => Fin.ext (by
    match ax with
    | ⟨0, _⟩ => exact (hr0 _ _).trans hk
    | ⟨1, _⟩ => exact hr1 _ _)
  rw [el, er]

/-- The host's `dot_general` of a batched left operand with one shared right operand, at entry `(b, m, n)`. -/
theorem dotGeneralShared_apply (D : DotDims ⟨3, ![B, M, K]⟩ ⟨2, ![K, N]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (q ⟨0, by omega⟩).val)
    (hr1 : ∀ i q, (D.rhsIdx i q 1).val = (i 2).val)
    (lhs : FVec Ideal ⟨3, ![B, M, K]⟩ φ₁) (rhs : FVec Ideal ⟨2, ![K, N]⟩ φ₂) (b : Fin B) (m : Fin M) (n : Fin N) :
    Host.dotGeneral D prec lhs rhs (ix3 b m n) = ∑ j : Fin K, lhs (ix3 b m j) * rhs (ix2 j n) :=
  (Ideal.dotGeneral_apply D prec .single lhs rhs (ix3 b m n)).trans (sumShared_eq D hr hs hl0 hl1 hl2 hr0 hr1 lhs rhs b m n)

/-! ## A maximum along one axis of a rank-3 array -/

/-- The binary32 word of `−∞` denotes `⊥`. -/
theorem ofBits_neg_inf : Ideal.ofBits .f32 0xFF800000#32 = (⊥ : EReal) := by
  simp [Ideal.ofBits, Ideal.ieee]

/-- The lane maximum of a `[B, M, N]` array over its LAST axis from the accumulator `−∞`, at `(b, m)`, is the fold of
    `max` from `⊥` over that lane's entries. -/
theorem laneMax_apply (v : FVec Ideal ⟨3, ![B, M, N]⟩ .f32) (h : (⟨3, ![B, M, N]⟩ : Shape).Reduces [2] ⟨2, ![B, M]⟩)
    (hacc : (0xFF800000#32 : BitVec 32) = FKind.maximumf.neutral .f32 (.inl rfl)) (b : Fin B) (m : Fin M) :
    multiReduction .maximumf [2] ⟨2, ![B, M]⟩ v 0xFF800000#32 h (.inl rfl) hacc (ix2 b m)
      = (Finset.univ : Finset (Fin N)).fold max ⊥ (fun k => v (ix3 b m k)) := by
  refine (Ideal.multiReduction_maximumf_single v 0xFF800000#32 h (.inl rfl) hacc (ix2 b m)).trans ?_
  rw [show (FloatOps.ofBits (F := Ideal) .f32 0xFF800000#32 : EReal) = ⊥ from ofBits_neg_inf]
  refine congrArg (fun f => (Finset.univ : Finset (Fin N)).fold max ⊥ f) (funext fun k => ?_)
  exact congrArg v (funext fun ax => Fin.ext (by
    match ax with
    | ⟨0, _⟩ => rfl
    | ⟨1, _⟩ => rfl
    | ⟨2, _⟩ => rfl))

/-- The host's maximum of a `[B, M, N]` array over its MIDDLE axis from an initial value, at `(b, n)`, is the fold of
    `max` from that value over the middle coordinates. -/
theorem hostMidMax_apply {u : Shape} (x : FVec Ideal ⟨3, ![B, M, N]⟩ .f32) (init : u.Idx → EReal)
    (h' : (⟨3, ![B, M, N]⟩ : Shape).ReducesTo [1] ⟨2, ![B, N]⟩) (h : (⟨3, ![B, M, N]⟩ : Shape).Reduces [1] ⟨2, ![B, N]⟩)
    (hu : 0 < u.numel) (b : Fin B) (n : Fin N) :
    Host.reduce (FloatOps.maximumf (F := Ideal) (φ := .f32)) x init h' hu (ix2 b n)
      = (Finset.univ : Finset (Fin M)).fold max (init (Shape.Idx.first hu)) (fun k => x (ix3 b k n)) := by
  refine (Host.reduce_eq_fold_single (FloatOps.maximumf (F := Ideal) (φ := .f32)) x init h' h hu (ix2 b n)).trans ?_
  refine congrArg (fun f => (Finset.univ : Finset (Fin M)).fold max (init (Shape.Idx.first hu)) f) (funext fun k => ?_)
  exact congrArg x (funext fun ax => Fin.ext (by
    match ax with
    | ⟨0, _⟩ => rfl
    | ⟨1, _⟩ => rfl
    | ⟨2, _⟩ => rfl))

end Idealize.ShloMosaic.BatchDot

end
-- ==== Proof.LibBatchDotT.lean ====
/-
  A batched matrix product whose two operands are BOTH contracted along their last axis, read at an entry, on the
  extended reals.

  `[B, M, K] × [B, N, K] → [B, M, N]` (per batch coordinate, the left operand times the transpose of the right): the
  matrix unit into the zero accumulator is the sum over the dimension record's contraction index of the operands'
  products, and when the record's operand indices are the expected ones — stated as facts about the record, which each
  use proves by evaluating its record — that sum re-indexes to `Σ j, lhs (b, m, j) · rhs (b, n, j)`.
-/
import Idealize.ShloMosaic.Lib.ValueIdx
import Idealize.ShloMosaic.PureOps.Ideal.Laws

noncomputable section

namespace Idealize.ShloMosaic.BatchDotT

open Idealize.ShloMosaic Idealize.ShloMosaic.ValueIdx

variable {B M K N : ℕ} {φ₁ φ₂ : FTy}

/-- The contraction sum at entry `(b, m, n)`, re-indexed by the contracted (last) coordinate of both operands. -/
theorem sum_eq (D : DotDims ⟨3, ![B, M, K]⟩ ⟨3, ![B, N, K]⟩ ⟨3, ![B, M, N]⟩)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (i 2).val)
    (hr2 : ∀ i q, (D.rhsIdx i q 2).val = (q ⟨0, by omega⟩).val)
    (lhs : FVec Ideal ⟨3, ![B, M, K]⟩ φ₁) (rhs : FVec Ideal ⟨3, ![B, N, K]⟩ φ₂) (b : Fin B) (m : Fin M) (n : Fin N) :
    ∑ q : D.contr.Idx, lhs (D.lhsIdx (ix3 b m n) q) * rhs (D.rhsIdx (ix3 b m n) q)
      = ∑ j : Fin K, lhs (ix3 b m j) * rhs (ix3 b n j) := by
  rw [← Equiv.sum_comp (contrEquiv1 D K hr hs).symm]
  refine Finset.sum_congr rfl fun j _ => ?_
  have hk := contrEquiv1_symm_val D K hr hs j
  have el : D.lhsIdx (ix3 b m n) ((contrEquiv1 D K hr hs).symm j) = ix3 b m j := funext fun ax => Fin.ext (by
    match ax with
    | ⟨0, _⟩ => exact hl0 _ _
    | ⟨1, _⟩ => exact hl1 _ _
    | ⟨2, _⟩ => exact (hl2 _ _).trans hk)
  have er : D.rhsIdx (ix3 b m n) ((contrEquiv1 D K hr hs).symm j) = ix3 b n j := funext fun ax => Fin.ext (by
    match ax with
    | ⟨0, _⟩ => exact hr0 _ _
    | ⟨1, _⟩ => exact hr1 _ _
    | ⟨2, _⟩ => exact (hr2 _ _).trans hk)
  rw [el, er]

/-- The matrix unit into the zero accumulator, both operands contracted along their last axis, at entry `(b, m, n)`. -/
theorem matmul_zero_apply (D : DotDims ⟨3, ![B, M, K]⟩ ⟨3, ![B, N, K]⟩ ⟨3, ![B, M, N]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (i 1).val)
    (hl2 : ∀ i q, (D.lhsIdx i q 2).val = (q ⟨0, by omega⟩).val)
    (hr0 : ∀ i q, (D.rhsIdx i q 0).val = (i 0).val)
    (hr1 : ∀ i q, (D.rhsIdx i q 1).val = (i 2).val)
    (hr2 : ∀ i q, (D.rhsIdx i q 2).val = (q ⟨0, by omega⟩).val)
    (lhs : FVec Ideal ⟨3, ![B, M, K]⟩ φ₁) (rhs : FVec Ideal ⟨3, ![B, N, K]⟩ φ₂) (b : Fin B) (m : Fin M) (n : Fin N) :
    matmul D prec lhs rhs (constant (F := Ideal) ⟨3, ![B, M, N]⟩ .f32 0x00000000#32) (ix3 b m n)
      = ∑ j : Fin K, lhs (ix3 b m j) * rhs (ix3 b n j) :=
  (Ideal.matmul_constant_zero_apply D prec lhs rhs (ix3 b m n)).trans (sum_eq D hr hs hl0 hl1 hl2 hr0 hr1 hr2 lhs rhs b m n)

end Idealize.ShloMosaic.BatchDotT

end
-- ==== Proof.KernelHead.lean ====
/-
  What the kernel body stores, read at an index.

  At one grid point the body holds four heads: blocks `xq`, `xk`, `xv` of shape `[4, 32, 4096]` (head, feature, token).
  Its values, in order: the key sums `ksum g e = Σ_j xk g e j` (a sum over the last axis, kept as `[4, 32, 1]`); the
  scores `Σ_j xv g d j · xk g e j` (a batched product contracting the last axis of both operands); the numerator
  `Σ_e scores g d e · xq g e n` (a batched product); the normaliser `Σ_e ksum g e · xq g e n` (the key sums broadcast
  over the tokens, multiplied pointwise by the query block, summed over the middle axis, kept as `[4, 1, 4096]`); and the
  quotient of the numerator by the normaliser plus `ε` broadcast over the features.  The roundings to a narrower float
  format in front of the two products are the identity on the extended reals.  So head `g` of the stored block is
  `LinAttn.head` of head `g` of the three input blocks.
-/
import proofs.«123421_j45208825758214_2_alg».proof.Proof.Gen.KernelIdeal.Skeleton
import proofs.«123421_j45208825758214_2_alg».proof.Proof.Spec
import proofs.«123421_j45208825758214_2_alg».proof.Proof.LibKeepdims3
import proofs.«123421_j45208825758214_2_alg».proof.Proof.LibBatchDot
import proofs.«123421_j45208825758214_2_alg».proof.Proof.LibBatchDotT
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-! ## The two products' dimension records: which operand entry each output entry and contraction index reads -/

/-- The scores' record: `[4, 32, 4096] × [4, 32, 4096] → [4, 32, 32]`, both operands contracted along the tokens. -/
abbrev DS : DotDims S4x32x4096 S4x32x4096 S4x32x32 := dot_S4x32x4096_S4x32x4096_S4x32x32_2_2_1_1_0_0
/-- The numerator's record: `[4, 32, 32] × [4, 32, 4096] → [4, 32, 4096]`, contracted along the features. -/
abbrev DN : DotDims S4x32x32 S4x32x4096 S4x32x4096 := dot_S4x32x32_S4x32x4096_S4x32x4096_2_1_1_2_0_0

theorem ds_l0 (i : S4x32x32.Idx) (q : DS.contr.Idx) : (DS.lhsIdx i q 0).val = (i 0).val := by
  unfold DotDims.lhsIdx
  rw [dif_pos (show (0 : Fin S4x32x4096.rank) ∈ DS.lhsBatch by decide)]
  rfl
theorem ds_l1 (i : S4x32x32.Idx) (q : DS.contr.Idx) : (DS.lhsIdx i q 1).val = (i 1).val := by
  unfold DotDims.lhsIdx
  rw [dif_neg (show ¬(1 : Fin S4x32x4096.rank) ∈ DS.lhsBatch by decide),
    dif_pos (show (1 : Fin S4x32x4096.rank) ∈ DS.lhsNonContracting by decide)]
  rfl
theorem ds_l2 (i : S4x32x32.Idx) (q : DS.contr.Idx) : (DS.lhsIdx i q 2).val = (q ⟨0, by decide⟩).val :=
  DS.lhsIdx_val_of_single rfl i q
theorem ds_r0 (i : S4x32x32.Idx) (q : DS.contr.Idx) : (DS.rhsIdx i q 0).val = (i 0).val := by
  unfold DotDims.rhsIdx
  rw [dif_pos (show (0 : Fin S4x32x4096.rank) ∈ DS.rhsBatch by decide)]
  rfl
theorem ds_r1 (i : S4x32x32.Idx) (q : DS.contr.Idx) : (DS.rhsIdx i q 1).val = (i 2).val := by
  unfold DotDims.rhsIdx
  rw [dif_neg (show ¬(1 : Fin S4x32x4096.rank) ∈ DS.rhsBatch by decide),
    dif_pos (show (1 : Fin S4x32x4096.rank) ∈ DS.rhsNonContracting by decide)]
  rfl
theorem ds_r2 (i : S4x32x32.Idx) (q : DS.contr.Idx) : (DS.rhsIdx i q 2).val = (q ⟨0, by decide⟩).val :=
  DS.rhsIdx_val_of_single rfl i q

theorem dn_l0 (i : S4x32x4096.Idx) (q : DN.contr.Idx) : (DN.lhsIdx i q 0).val = (i 0).val := by
  unfold DotDims.lhsIdx
  rw [dif_pos (show (0 : Fin S4x32x32.rank) ∈ DN.lhsBatch by decide)]
  rfl
theorem dn_l1 (i : S4x32x4096.Idx) (q : DN.contr.Idx) : (DN.lhsIdx i q 1).val = (i 1).val := by
  unfold DotDims.lhsIdx
  rw [dif_neg (show ¬(1 : Fin S4x32x32.rank) ∈ DN.lhsBatch by decide),
    dif_pos (show (1 : Fin S4x32x32.rank) ∈ DN.lhsNonContracting by decide)]
  rfl
theorem dn_l2 (i : S4x32x4096.Idx) (q : DN.contr.Idx) : (DN.lhsIdx i q 2).val = (q ⟨0, by decide⟩).val :=
  DN.lhsIdx_val_of_single rfl i q
theorem dn_r0 (i : S4x32x4096.Idx) (q : DN.contr.Idx) : (DN.rhsIdx i q 0).val = (i 0).val := by
  unfold DotDims.rhsIdx
  rw [dif_pos (show (0 : Fin S4x32x4096.rank) ∈ DN.rhsBatch by decide)]
  rfl
theorem dn_r1 (i : S4x32x4096.Idx) (q : DN.contr.Idx) : (DN.rhsIdx i q 1).val = (q ⟨0, by decide⟩).val :=
  DN.rhsIdx_val_of_single rfl i q
theorem dn_r2 (i : S4x32x4096.Idx) (q : DN.contr.Idx) : (DN.rhsIdx i q 2).val = (i 2).val := by
  unfold DotDims.rhsIdx
  rw [dif_neg (show ¬(2 : Fin S4x32x4096.rank) ∈ DN.rhsBatch by decide),
    dif_pos (show (2 : Fin S4x32x4096.rank) ∈ DN.rhsNonContracting by decide)]
  rfl

/-! ## The body's intermediate values, named -/

/-- The scores of the four heads: the value block against the key block. -/
def scoresV (xk xv : Vec Ideal S4x32x4096 .f32) : FVec Ideal S4x32x32 .f32 :=
  matmul DS none (truncf .bf16 (shapeCast S4x32x4096 xv shapeCasts_S4x32x4096_S4x32x4096) bitsLt_bf16_f32)
    (truncf .bf16 (shapeCast S4x32x4096 xk shapeCasts_S4x32x4096_S4x32x4096) bitsLt_bf16_f32)
    (constant S4x32x32 .f32 0x00000000#32)

/-- The numerators: the scores against the query block. -/
def numV (xq xk xv : Vec Ideal S4x32x4096 .f32) : FVec Ideal S4x32x4096 .f32 :=
  matmul DN none (truncf .bf16 (scoresV xk xv) bitsLt_bf16_f32)
    (truncf .bf16 (shapeCast S4x32x4096 xq shapeCasts_S4x32x4096_S4x32x4096) bitsLt_bf16_f32)
    (constant S4x32x4096 .f32 0x00000000#32)

/-- The key sums. -/
def ksumV (xk : Vec Ideal S4x32x4096 .f32) : FVec Ideal S4x32 .f32 :=
  multiReduction .add [2] S4x32 (shapeCast S4x32x4096 xk shapeCasts_S4x32x4096_S4x32x4096) 0x00000000#32
    reduces_S4x32x4096_S4x32 (.inl rfl) rfl

/-- The normalisers, before `ε` is added. -/
def denV (xq xk : Vec Ideal S4x32x4096 .f32) : FVec Ideal S4x4096 .f32 :=
  multiReduction .add [1] S4x4096
    (mulf (broadcastTo S4x32x4096 (shapeCast S4x32x1 (ksumV xk) shapeCasts_S4x32_S4x32x1) broadcasts_S4x32x1_S4x32x4096)
      (shapeCast S4x32x4096 xq shapeCasts_S4x32x4096_S4x32x4096))
    0x00000000#32 reduces_S4x32x4096_S4x4096 (.inl rfl) rfl

/-- The stored value is the numerators divided by the normalisers plus `ε`, broadcast over the features. -/
theorem pay_eq (xq xk xv : Vec Ideal S4x32x4096 .f32) :
    k0_pay1 xq xk xv
      = divf (numV xq xk xv)
          (broadcastTo S4x32x4096
            (addf (shapeCast S4x1x4096 (denV xq xk) shapeCasts_S4x4096_S4x1x4096)
              (broadcast S4x1x4096 (Scalar.ofBits (F := Ideal) .f32 0x26901D7D#32)))
            broadcasts_S4x1x4096_S4x32x4096) := rfl

/-! ## Each value at an index -/

theorem scores_apply (xk xv : Vec Ideal S4x32x4096 .f32) (g : Fin 4) (d e : Fin 32) :
    scoresV xk xv (ix3 g d e) = ∑ j : Fin 4096, xv (ix3 g d j) * xk (ix3 g e j) := by
  unfold scoresV
  rw [shapeCast_self, shapeCast_self]
  exact BatchDotT.matmul_zero_apply DS none rfl rfl ds_l0 ds_l1 ds_l2 ds_r0 ds_r1 ds_r2 _ _ g d e

theorem num_apply (xq xk xv : Vec Ideal S4x32x4096 .f32) (g : Fin 4) (d : Fin 32) (n : Fin 4096) :
    numV xq xk xv (ix3 g d n)
      = LinAttn.num (fun e n => xq (ix3 g e n)) (fun e n => xk (ix3 g e n)) (fun d n => xv (ix3 g d n)) d n := by
  unfold numV LinAttn.num
  rw [shapeCast_self]
  refine (BatchDot.matmul_zero_apply DN none rfl rfl dn_l0 dn_l1 dn_l2 dn_r0 dn_r1 dn_r2 _ _ g d n).trans ?_
  refine Finset.sum_congr rfl fun e _ => ?_
  rw [truncf_apply, truncf_apply, scores_apply]

theorem ksum_apply (xk : Vec Ideal S4x32x4096 .f32) (g : Fin 4) (e : Fin 32) :
    ksumV xk (ix2 g e) = ∑ j : Fin 4096, xk (ix3 g e j) := by
  unfold ksumV
  rw [shapeCast_self]
  exact Keepdims3.lastSum_apply xk _ rfl g e

theorem den_apply (xq xk : Vec Ideal S4x32x4096 .f32) (g : Fin 4) (n : Fin 4096) :
    denV xq xk (ix2 g n) = LinAttn.den (fun e n => xq (ix3 g e n)) (fun e n => xk (ix3 g e n)) n := by
  unfold denV LinAttn.den
  rw [shapeCast_self]
  refine (Keepdims3.midSum_apply _ _ rfl g n).trans ?_
  refine Finset.sum_congr rfl fun e _ => ?_
  rw [mulf_apply, Keepdims3.broadcastTo_ab1_abc_apply, Keepdims3.shapeCast_ab_ab1_apply, ksum_apply]

/-- Head `g` of the stored block is `LinAttn.head` of head `g` of the query, key and value blocks. -/
theorem pay_apply (xq xk xv : Vec Ideal S4x32x4096 .f32) (g : Fin 4) (d : Fin 32) (n : Fin 4096) :
    k0_pay1 xq xk xv (ix3 g d n)
      = LinAttn.head (fun e n => xq (ix3 g e n)) (fun e n => xk (ix3 g e n)) (fun d n => xv (ix3 g d n)) d n := by
  rw [pay_eq, divf_apply, num_apply, Keepdims3.broadcastTo_a1c_abc_apply, addf_apply,
    Keepdims3.shapeCast_ac_a1c_apply, den_apply, broadcast_apply]
  rfl

/-- If head `g` of each input block is row `T` of an operand array, head `g` of the stored block is row `T` of
    `LinAttn.result3` of the operand arrays. -/
theorem block_eq (Aq Ak Av : S72x32x4096.Idx → EReal) (xq xk xv : Vec Ideal S4x32x4096 .f32) (T : Fin 72) (g : Fin 4)
    (d : Fin 32) (n : Fin 4096)
    (hq : ∀ (e : Fin 32) (n' : Fin 4096), xq (ix3 g e n') = Aq (ix3 T e n'))
    (hk : ∀ (e : Fin 32) (n' : Fin 4096), xk (ix3 g e n') = Ak (ix3 T e n'))
    (hv : ∀ (e : Fin 32) (n' : Fin 4096), xv (ix3 g e n') = Av (ix3 T e n')) :
    k0_pay1 xq xk xv (ix3 g d n) = LinAttn.result3 Aq Ak Av (ix3 T d n) := by
  rw [pay_apply, LinAttn.result3_apply]
  simp only [hq, hk, hv]

end Cert.KernelIdeal.Body

end
-- ==== Proof.Flatten.lean ====
/-
  Flattening the batch and head axes commutes with the per-head computation.

  The launch sees the three arguments as `[72, 32, 4096]` arrays — the row-major reshape of `[2, 36, 32, 4096]`, head
  `(b, h)` becoming row `36·b + h` — and its result is reshaped back.  A reshape reads the operand at the index with
  the same row-major position, and `((36·b + h)·32 + d)·4096 + n` is the position of `(b, h, d, n)` in the one shape and
  of `(36·b + h, d, n)` in the other.  Since each head is computed from its own rows only, reshaping the arguments,
  computing head by head and reshaping back is computing head by head on the arguments as given.
-/
import proofs.«123421_j45208825758214_2_alg».proof.Proof.Spec
import Idealize.ShloMosaic.Lib.Pipeline.Value
import Idealize.ShloMosaic.Lib.ValueIdx

noncomputable section

namespace LinAttn

open Idealize.ShloMosaic Idealize.ShloMosaic.ValueIdx

/-- A `[2, 36, 32, 4096]` array reshaped to `[72, 32, 4096]`, at `(36·b + h, d, n)`, is the array at `(b, h, d, n)`. -/
theorem flat_apply (x : (⟨4, ![2, 36, 32, 4096]⟩ : Shape).Idx → EReal)
    (h1 : (⟨4, ![2, 36, 32, 4096]⟩ : Shape).ShapeCasts ⟨3, ![72, 32, 4096]⟩) (b : Fin 2) (h : Fin 36) (g : Fin 72)
    (hg : g.val = b.val * 36 + h.val) (d : Fin 32) (n : Fin 4096) :
    shapeCast ⟨3, ![72, 32, 4096]⟩ x h1 (ix3 g d n) = x (ix4 b h d n) :=
  shapeCast_apply x h1 _ _ (by
    rw [Shape.rowMajor_val_four, Shape.rowMajor_val_three]
    show ((b.val * 36 + h.val) * 32 + d.val) * 4096 + n.val = (g.val * 32 + d.val) * 4096 + n.val
    rw [hg])

/-- A `[72, 32, 4096]` array reshaped to `[2, 36, 32, 4096]`, at `(b, h, d, n)`, is the array at `(36·b + h, d, n)`. -/
theorem unflat_apply (y : (⟨3, ![72, 32, 4096]⟩ : Shape).Idx → EReal)
    (h2 : (⟨3, ![72, 32, 4096]⟩ : Shape).ShapeCasts ⟨4, ![2, 36, 32, 4096]⟩) (b : Fin 2) (h : Fin 36) (g : Fin 72)
    (hg : g.val = b.val * 36 + h.val) (d : Fin 32) (n : Fin 4096) :
    shapeCast ⟨4, ![2, 36, 32, 4096]⟩ y h2 (ix4 b h d n) = y (ix3 g d n) :=
  shapeCast_apply y h2 _ _ (by
    rw [Shape.rowMajor_val_four, Shape.rowMajor_val_three]
    show (g.val * 32 + d.val) * 4096 + n.val = ((b.val * 36 + h.val) * 32 + d.val) * 4096 + n.val
    rw [hg])

/-- Reshape the arguments, compute head by head, reshape back: the per-head result on the arguments as given. -/
theorem unflat_result3_flat (q k v : (⟨4, ![2, 36, 32, 4096]⟩ : Shape).Idx → EReal)
    (h1 : (⟨4, ![2, 36, 32, 4096]⟩ : Shape).ShapeCasts ⟨3, ![72, 32, 4096]⟩)
    (h2 : (⟨3, ![72, 32, 4096]⟩ : Shape).ShapeCasts ⟨4, ![2, 36, 32, 4096]⟩) :
    shapeCast ⟨4, ![2, 36, 32, 4096]⟩
        (result3 (shapeCast ⟨3, ![72, 32, 4096]⟩ q h1) (shapeCast ⟨3, ![72, 32, 4096]⟩ k h1)
          (shapeCast ⟨3, ![72, 32, 4096]⟩ v h1)) h2
      = result q k v := by
  funext i
  obtain ⟨b, h, d, n, rfl⟩ : ∃ (b : Fin 2) (h : Fin 36) (d : Fin 32) (n : Fin 4096), i = ix4 b h d n :=
    ⟨i 0, i 1, i 2, i 3, eq_ix4 i⟩
  have hlt : b.val * 36 + h.val < 72 := by have := b.isLt; have := h.isLt; omega
  rw [unflat_apply _ h2 b h ⟨b.val * 36 + h.val, hlt⟩ rfl d n, result3_apply, result_apply]
  simp only [flat_apply _ h1 b h ⟨b.val * 36 + h.val, hlt⟩ rfl]

end LinAttn

end
-- ==== Proof.KernelArray.lean ====
/-
  From what one grid point stores to the program's result.

  The launch runs 18 grid points; point `t` fetches rows `4t … 4t + 3` (four heads) of the three `[72, 32, 4096]`
  operands and writes back rows `4t … 4t + 3` of the `[72, 32, 4096]` output, every window over the whole feature and
  token axes.  Head `g` of the stored block depends only on head `g` of the three input blocks, which is row `4t + g` of
  the operands: so the block written back is rows `4t … 4t + 3` of `LinAttn.result3` of the operands, the eighteen blocks
  tile the 72 rows, and the output array ends holding `LinAttn.result3` of the operands.  The operands are the program's
  arguments reshaped from `[2, 36, 32, 4096]`, and the program's result is the output array reshaped back.
-/
import proofs.«123421_j45208825758214_2_alg».proof.Proof.Gen.KernelIdeal.Frame
import proofs.«123421_j45208825758214_2_alg».proof.Proof.KernelHead
import proofs.«123421_j45208825758214_2_alg».proof.Proof.Flatten
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- The four windows' block indices at point `t`: block `t` along the rows, block `0` along features and tokens. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## Each input block is four rows of its operand -/

/-- The query block at point `t`, head `g`, is row `4t + g` of the first operand. -/
theorem iblk0_apply (c : Dev nD) (t : Fin cfg0.N) (g : Fin 4) (e : Fin 32) (n : Fin 4096) (T : Fin 72)
    (hT : T.val = 4 * t.val + g.val) :
    (iblk m c 0 t : Vec Ideal S4x32x4096 .f32) (ix3 g e n) = (V m c main_v0 : S72x32x4096.Idx → EReal) (ix3 T e n) := by
  obtain ⟨⟨i0, i1, i2⟩, -, -, -⟩ := idx_facts t
  unfold iblk
  rw [View.read_apply]
  show V m c main_v0 (((cfg0.win 0).blk t).view.emb (ix3 g e n)) = V m c main_v0 (ix3 T e n)
  refine congrArg (V m c main_v0) (funext fun a => Fin.ext ?_)
  match a with
  | ⟨0, _⟩ => show win0_0.index t (0 : Fin 3) * 4 + 1 * g.val = T.val; rw [i0, hT]; omega
  | ⟨1, _⟩ => show win0_0.index t (1 : Fin 3) * 32 + 1 * e.val = e.val; rw [i1]; omega
  | ⟨2, _⟩ => show win0_0.index t (2 : Fin 3) * 4096 + 1 * n.val = n.val; rw [i2]; omega

/-- The key block at point `t`, head `g`, is row `4t + g` of the second operand. -/
theorem iblk1_apply (c : Dev nD) (t : Fin cfg0.N) (g : Fin 4) (e : Fin 32) (n : Fin 4096) (T : Fin 72)
    (hT : T.val = 4 * t.val + g.val) :
    (iblk m c 1 t : Vec Ideal S4x32x4096 .f32) (ix3 g e n) = (V m c main_v1 : S72x32x4096.Idx → EReal) (ix3 T e n) := by
  obtain ⟨-, ⟨i0, i1, i2⟩, -, -⟩ := idx_facts t
  unfold iblk
  rw [View.read_apply]
  show V m c main_v1 (((cfg0.win 1).blk t).view.emb (ix3 g e n)) = V m c main_v1 (ix3 T e n)
  refine congrArg (V m c main_v1) (funext fun a => Fin.ext ?_)
  match a with
  | ⟨0, _⟩ => show win0_1.index t (0 : Fin 3) * 4 + 1 * g.val = T.val; rw [i0, hT]; omega
  | ⟨1, _⟩ => show win0_1.index t (1 : Fin 3) * 32 + 1 * e.val = e.val; rw [i1]; omega
  | ⟨2, _⟩ => show win0_1.index t (2 : Fin 3) * 4096 + 1 * n.val = n.val; rw [i2]; omega

/-- The value block at point `t`, head `g`, is row `4t + g` of the third operand. -/
theorem iblk2_apply (c : Dev nD) (t : Fin cfg0.N) (g : Fin 4) (e : Fin 32) (n : Fin 4096) (T : Fin 72)
    (hT : T.val = 4 * t.val + g.val) :
    (iblk m c 2 t : Vec Ideal S4x32x4096 .f32) (ix3 g e n) = (V m c main_v2 : S72x32x4096.Idx → EReal) (ix3 T e n) := by
  obtain ⟨-, -, ⟨i0, i1, i2⟩, -⟩ := idx_facts t
  unfold iblk
  rw [View.read_apply]
  show V m c main_v2 (((cfg0.win 2).blk t).view.emb (ix3 g e n)) = V m c main_v2 (ix3 T e n)
  refine congrArg (V m c main_v2) (funext fun a => Fin.ext ?_)
  match a with
  | ⟨0, _⟩ => show win0_2.index t (0 : Fin 3) * 4 + 1 * g.val = T.val; rw [i0, hT]; omega
  | ⟨1, _⟩ => show win0_2.index t (1 : Fin 3) * 32 + 1 * e.val = e.val; rw [i1]; omega
  | ⟨2, _⟩ => show win0_2.index t (2 : Fin 3) * 4096 + 1 * n.val = n.val; rw [i2]; omega

/-! ## What a point writes back, and the output array after the launch -/

/-- The output array's contents after the launch: the per-head result of the three operands as the launch finds them. -/
abbrev outArr (c : Dev nD) : S72x32x4096.Idx → EReal :=
  LinAttn.result3 (V m c main_v0) (V m c main_v1) (V m c main_v2)

/-- What point `t` writes back is rows `4t … 4t + 3` of `outArr`. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  unfold out0_3
  rw [View.canon_unit_zero hz]
  simp only [View.ld_unit_zero (S := S4x32x4096) hz]
  obtain ⟨-, -, -, ⟨o0, o1, o2⟩⟩ := idx_facts t
  refine funext fun (j : S4x32x4096.Idx) => ?_
  obtain ⟨g, d, n, rfl⟩ : ∃ (g : Fin 4) (d : Fin 32) (n : Fin 4096), j = ix3 g d n := ⟨j 0, j 1, j 2, eq_ix3 j⟩
  have hN : cfg0.N = 18 := N_0
  have hlt : 4 * t.val + g.val < 72 := by have := t.isLt; have := g.isLt; omega
  show k0_pay1 (iblk m c 0 t) (iblk m c 1 t) (iblk m c 2 t) (ix3 g d n)
    = outArr m c (((cfg0.win 3).blk t).view.emb (ix3 g d n))
  refine (Body.block_eq (V m c main_v0) (V m c main_v1) (V m c main_v2) (iblk m c 0 t) (iblk m c 1 t) (iblk m c 2 t)
    ⟨4 * t.val + g.val, hlt⟩ g d n
    (fun e n' => iblk0_apply m c t g e n' _ rfl) (fun e n' => iblk1_apply m c t g e n' _ rfl)
    (fun e n' => iblk2_apply m c t g e n' _ rfl)).trans ?_
  refine congrArg (LinAttn.result3 (V m c main_v0) (V m c main_v1) (V m c main_v2)) (funext fun a => Fin.ext ?_)
  match a with
  | ⟨0, _⟩ => show 4 * t.val + g.val = win0_3.index t (0 : Fin 3) * 4 + 1 * g.val; rw [o0]; omega
  | ⟨1, _⟩ => show d.val = win0_3.index t (1 : Fin 3) * 32 + 1 * d.val; rw [o1]; omega
  | ⟨2, _⟩ => show n.val = win0_3.index t (2 : Fin 3) * 4096 + 1 * n.val; rw [o2]; omega

/-- An index of the output array is in point `t`'s block iff each coordinate is in the block's range on its axis. -/
theorem mem_blk (t : Fin cfg0.N) (i : S72x32x4096.Idx) :
    i ∈ ((cfg0.win 3).blk t).view.set ↔ ∀ a : Fin 3, win0_3.index t a * S4x32x4096.size a ≤ (i a).val
      ∧ (i a).val < win0_3.index t a * S4x32x4096.size a + S4x32x4096.size a := by
  show i ∈ ((View.whole main_v3).slice (win0_3.rect t)).set ↔ _
  rw [View.set_slice_whole, Rect.mem_set_unit]
  exact Iff.rfl

/-- Every index of the output array is in the block of the point its row falls in: row `r` in point `r / 4`'s. -/
theorem cover (i : S72x32x4096.Idx) :
    ∃ t : Fin cfg0.N, (cfg0.win 3).flush t = true ∧ i ∈ ((cfg0.win 3).blk t).view.set := by
  have hi0 : (i 0).val < 72 := (i 0).isLt
  have hi1 : (i 1).val < 32 := (i 1).isLt
  have hi2 : (i 2).val < 4096 := (i 2).isLt
  have hN : cfg0.N = 18 := N_0
  obtain ⟨t, ht⟩ : ∃ t : Fin cfg0.N, t.val = (i 0).val / 4 := ⟨⟨(i 0).val / 4, by omega⟩, rfl⟩
  obtain ⟨-, -, -, ⟨o0, o1, o2⟩⟩ := idx_facts t
  refine ⟨t, flush0_3 t, ?_⟩
  rw [mem_blk]
  intro a
  match a with
  | ⟨0, _⟩ =>
    show win0_3.index t (0 : Fin 3) * 4 ≤ (i 0).val ∧ (i 0).val < win0_3.index t (0 : Fin 3) * 4 + 4
    rw [o0, ht]; omega
  | ⟨1, _⟩ =>
    show win0_3.index t (1 : Fin 3) * 32 ≤ (i 1).val ∧ (i 1).val < win0_3.index t (1 : Fin 3) * 32 + 32
    rw [o1]; omega
  | ⟨2, _⟩ =>
    show win0_3.index t (2 : Fin 3) * 4096 ≤ (i 2).val ∧ (i 2).val < win0_3.index t (2 : Fin 3) * 4096 + 4096
    rw [o2]; omega

/-- The output array after the launch is `outArr`. -/
theorem final (c : Dev nD) : (dats m 0 c).arrAt 3 cfg0.N = outArr m c :=
  (dats m 0 c).arrAt_eq_of_cover 3 (outArr m c) (fun t _ => flushed_eq m c t) cover

/-! ## The reshapes around the launch -/

/-- The first operand as the launch finds it: the query argument reshaped. -/
theorem V_v0 (c : Dev nD) : (V m c main_v0 : S72x32x4096.Idx → EReal)
    = shapeCast S72x32x4096 (m ((c : Thread nD τ).loc main_arg0)) shapeCasts_S2x36x32x4096_S72x32x4096 := by
  show StableHlo.after hostOps0 (fun b => m (c, b)) (Proc.devRef .tc main_v0) = _
  after_results
  rfl

/-- The second operand as the launch finds it: the key argument reshaped. -/
theorem V_v1 (c : Dev nD) : (V m c main_v1 : S72x32x4096.Idx → EReal)
    = shapeCast S72x32x4096 (m ((c : Thread nD τ).loc main_arg1)) shapeCasts_S2x36x32x4096_S72x32x4096 := by
  show StableHlo.after hostOps0 (fun b => m (c, b)) (Proc.devRef .tc main_v1) = _
  after_results
  rfl

/-- The third operand as the launch finds it: the value argument reshaped. -/
theorem V_v2 (c : Dev nD) : (V m c main_v2 : S72x32x4096.Idx → EReal)
    = shapeCast S72x32x4096 (m ((c : Thread nD τ).loc main_arg2)) shapeCasts_S2x36x32x4096_S72x32x4096 := by
  show StableHlo.after hostOps0 (fun b => m (c, b)) (Proc.devRef .tc main_v2) = _
  after_results
  rfl

/-- The program's result after the line that follows the launch: the output array reshaped back. -/
theorem tail_eq (c : Dev nD) :
    Pipeline.afterTail₀ cfgs (dats m) 0 (V0 m) [hostOps1] c main_v4
      = shapeCast S2x36x32x4096 (outArr m c) shapeCasts_S72x32x4096_S2x36x32x4096 := by
  unfold Pipeline.afterTail₀
  show StableHlo.after hostOps1 _ (Proc.devRef .tc main_v4) = _
  after_results
  exact congrArg
    (fun X : S72x32x4096.Idx → EReal => shapeCast S2x36x32x4096 X shapeCasts_S72x32x4096_S2x36x32x4096)
    ((Pipeline.withArrays_arr spec0 launch0.win.arr_inj c _ _ 3).trans (final m c))

/-- Reshaping the arguments, computing head by head and reshaping back is the per-head result of the arguments. -/
theorem result_eq (c : Dev nD) :
    shapeCast S2x36x32x4096 (outArr m c) shapeCasts_S72x32x4096_S2x36x32x4096
      = LinAttn.result (m ((c : Thread nD τ).loc main_arg0)) (m ((c : Thread nD τ).loc main_arg1))
          (m ((c : Thread nD τ).loc main_arg2)) := by
  show shapeCast S2x36x32x4096 (LinAttn.result3 (V m c main_v0) (V m c main_v1) (V m c main_v2))
    shapeCasts_S72x32x4096_S2x36x32x4096 = _
  rw [V_v0 m c, V_v1 m c, V_v2 m c]
  exact LinAttn.unflat_result3_flat _ _ _ _ _

/-! ## The run, read -/

/-- Every weakly fair execution of the idealized kernel program terminates with its result at `LinAttn.result` of the
    three arguments, and the arguments unchanged. -/
theorem run : θ_run defs (onTc (τ := τ) (main (F := Ideal))) ⟨m, fun _ => 0, ρ⟩ fun r => ∀ c : Dev nD,
      r.2.mem ((c : Thread nD τ).loc main_v4)
        = LinAttn.result (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans
        ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.lean ====
/-
  Linear attention with a ones-row normaliser: the kernel against its reference, on the extended reals.

  Both programs compute, for each of the 72 (batch, head) pairs, with `Q`, `K`, `V` that head's `32 × 4096` query, key and
  value arrays (feature × token),

      out d n = (Σ_e (Σ_j V d j · K e j) · Q e n) / ((Σ_e (Σ_j K e j) · Q e n) + ε).

  The reference gets the normaliser by appending a row of ones to `V` and taking row `32` of the same two products; the
  kernel sums the key rows directly.  The two differ by a factor `1` on each key entry, and `1 · x = x` for every extended
  real, so the results agree whatever the inputs hold: the precondition is not used for the values.  The kernel processes
  four heads per grid point over arrays with batch and head flattened into one axis of extent 72; the reshapes before
  and after the launch undo each other head by head.

  The three frames: the two kernel programs' are the generated frame proofs; the reference's is its generated run with
  the result dropped.  The idealization rewrote nothing, so there is nothing to preserve.
-/
import proofs.«123421_j45208825758214_2_alg».proof.Defs
import proofs.«123421_j45208825758214_2_alg».proof.Proof.Gen.Kernel
import proofs.«123421_j45208825758214_2_alg».proof.Proof.Gen.Kernel.Skeleton
import proofs.«123421_j45208825758214_2_alg».proof.Proof.Gen.Kernel.Launch
import proofs.«123421_j45208825758214_2_alg».proof.Proof.Gen.Kernel.Points
import proofs.«123421_j45208825758214_2_alg».proof.Proof.Gen.Kernel.Frame
import proofs.«123421_j45208825758214_2_alg».proof.Proof.Gen.KernelIdeal
import proofs.«123421_j45208825758214_2_alg».proof.Proof.Gen.KernelIdeal.Skeleton
import proofs.«123421_j45208825758214_2_alg».proof.Proof.Gen.KernelIdeal.Launch
import proofs.«123421_j45208825758214_2_alg».proof.Proof.Gen.KernelIdeal.Points
import proofs.«123421_j45208825758214_2_alg».proof.Proof.Gen.KernelIdeal.Frame
import proofs.«123421_j45208825758214_2_alg».proof.Proof.Gen.ReferenceIdeal
import proofs.«123421_j45208825758214_2_alg».proof.Proof.Gen.ReferenceIdeal.Run
import proofs.«123421_j45208825758214_2_alg».proof.Proof.Gen.ReferenceIdeal.Read
import proofs.«123421_j45208825758214_2_alg».proof.Proof.Gen.Pre_finite_inputs
import proofs.«123421_j45208825758214_2_alg».proof.Proof.RefSpec
import proofs.«123421_j45208825758214_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `LinAttn.result` of the query, key and value arguments: the kernel's by its
    blocks and the reshapes around the launch, the reference's by reading its operations index by index. -/
theorem algebraic : Cert.algebraic_KernelIdeal_ReferenceIdeal := by
  intro m ρ m' ρ' _ hagree
  refine ⟨fun c => LinAttn.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
